-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S128x1024 : Shape := ⟨2, ![128, 1024]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S8x4096x128 .f32) (main_arg1 : FVec F S128x1024 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S8x4096x128 : Shape := ⟨3, ![8, 4096, 128]⟩
abbrev S128x1024 : Shape := ⟨2, ![128, 1024]⟩
abbrev S32768x128 : Shape := ⟨2, ![32768, 128]⟩
abbrev S_ : Shape := ⟨0, ![]⟩
abbrev S1024 : Shape := ⟨1, ![1024]⟩
abbrev S1x1024 : Shape := ⟨2, ![1, 1024]⟩
abbrev S32768x1024 : Shape := ⟨2, ![32768, 1024]⟩
abbrev S1024x128 : Shape := ⟨2, ![1024, 128]⟩
abbrev S1024x1024 : Shape := ⟨2, ![1024, 1024]⟩
abbrev S1024x1 : Shape := ⟨2, ![1024, 1]⟩
abbrev S8x4096x1024 : Shape := ⟨3, ![8, 4096, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8x4096x128, .f32⟩
  | .hbm, ⟨1, _⟩ => ⟨S128x1024, .f32⟩
  | .hbm, ⟨2, _⟩ => ⟨S32768x128, .f32⟩
  | .hbm, ⟨3, _⟩ => ⟨S128x1024, .bf16⟩
  | .hbm, ⟨4, _⟩ => ⟨S128x1024, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S32768x1024, .f32⟩
  | .hbm, ⟨9, _⟩ => ⟨S8x4096x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x128_S32768x128 : S8x4096x128.ShapeCasts S32768x128
  bitsLt_bf16_f32 : FTy.bits .bf16 < FTy.bits .f32
  reducesTo_S128x1024_S1024_d0 : S128x1024.ReducesTo [0] S1024
  h_S_ : 0 < S_.numel
  bcast_S1024_S1x1024_1 : S1024.BroadcastsInDim S1x1024 (![1] : Fin 1 → Fin S1x1024.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S32768x1024_S8x4096x1024 : S32768x1024.ShapeCasts S8x4096x1024
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x128 : Shape := ⟨3, ![8, 4096, 128]⟩
abbrev S128x1024 : Shape := ⟨2, ![128, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S8x4096x1024 : Shape := ⟨3, ![8, 4096, 1024]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S128x1024, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S128x1024, .f32⟩
  | .hbm, ⟨7, _⟩ => ⟨S_, .f32⟩
  | .hbm, ⟨8, _⟩ => ⟨S1024, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  reducesTo_S128x1024_S1024_d0 : S128x1024.ReducesTo [0] S1024
  bcast_S1024_S1x1x1024_2 : S1024.BroadcastsInDim S1x1x1024 (![2] : Fin 1 → Fin S1x1x1024.rank)
  bcast_S8x4096x1_S8x4096x1024_0_1_2 : S8x4096x1.BroadcastsInDim S8x4096x1024 (![0, 1, 2] : Fin 3 → Fin S8x4096x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x128_S128x1024_S8x4096x1024_2_0_01_1_n_n_wf : DotDims.WF S8x4096x128 S128x1024 S8x4096x1024 [2] [0] [0, 1] [1] [] []

variable [Facts₀]

def dot_S8x4096x128_S128x1024_S8x4096x1024_2_0_01_1_n_n : DotDims S8x4096x128 S128x1024 S8x4096x1024 where
  lhsContracting := [2]
  rhsContracting := [0]
  lhsNonContracting := [0, 1]
  rhsNonContracting := [1]
  lhsBatch := []
  rhsBatch := []
  wf := dot_S8x4096x128_S128x1024_S8x4096x1024_2_0_01_1_n_n_wf

class Facts : Prop extends Facts₀ where

variable [Facts]
-- ==== Proof.Finite.lean ====
/-
  From the precondition to real numbers. The precondition says, of each input, that every entry's absolute value is
  strictly below `+∞`, and joins the two statements. Over the extended reals an entry whose absolute value
  `max a (−a)` is below `+∞` is neither `+∞` nor `−∞`, hence a real number. So under the precondition every entry of both
  inputs is a real number — which is what makes sums and products of entries behave as they do over the reals.
-/
import proofs.«116881_j11029476016273_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

noncomputable section

namespace Cert.Finite

open Idealize.ShloMosaic

/-- The binary32 pattern with all exponent bits set, a clear sign and a zero fraction denotes `+∞`. -/
theorem ofBits_inf : Ideal.ofBits .f32 0x7F800000#32 = (⊤ : EReal) := by
  simp [Ideal.ofBits, Ideal.ieee]

/-- An extended real whose absolute value `max a (-a)` lies strictly below `+∞` is a real number:
    `a = +∞` gives `max a (-a) = +∞`, and `a = -∞` gives `-a = +∞`, so neither infinity passes the test. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- The ordered "less than" comparison at the extended reals yields the word 1 exactly when the strict inequality holds. -/
theorem cmp_olt_eq_one {a b : EReal} (h : Ideal.cmp .olt a b = 1#1) : a < b := by
  unfold Ideal.cmp at h
  by_contra hn
  simp [hn] at h

instance : Subsingleton Cert.Pre_finite_inputs.S_.Idx := ⟨fun a b => funext fun d => d.elim0⟩

/-- If the finiteness predicate (every `|x i| < +∞` and every `|w i| < +∞`, conjoined) evaluates to true at the
    extended reals, then every entry of both inputs is a real number. -/
theorem real_of_pre [Cert.Pre_finite_inputs.Facts]
    (x : FVec Ideal Cert.Pre_finite_inputs.S8x4096x128 .f32) (w : FVec Ideal Cert.Pre_finite_inputs.S128x1024 .f32)
    (h : Cert.Pre_finite_inputs.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs.fn] at h0
  obtain ⟨hx, hw⟩ := IntOp.andi_eq_one.1 h0
  refine ⟨fun i => ?_, fun i => ?_⟩
  · have e := Host.reduce_andi_all _ _ _ _ _ hx i
    have e' : max (x i) (-(x i)) < Ideal.ofBits .f32 0x7F800000#32 := cmp_olt_eq_one e
    rw [ofBits_inf] at e'
    exact real_of_abs_lt_top (x i) e'
  · have e := Host.reduce_andi_all _ _ _ _ _ hw i
    have e' : max (w i) (-(w i)) < Ideal.ofBits .f32 0x7F800000#32 := cmp_olt_eq_one e
    rw [ofBits_inf] at e'
    exact real_of_abs_lt_top (w i) e'

end Cert.Finite

end
-- ==== Proof.Operands.lean ====
/-
  What the kernel's region finds in its three operand arrays, as functions of the two arguments. Before the region
  the program lays the 8 × 4096 × 128 argument `x` out as 32768 rows of 128 (same numbers, same row-major order),
  rounds the 128 × 1024 argument `w` to a shorter float format (no change where numbers are exact), and forms the row
  of column sums of squares of `w`: entry `(0, u)` is  0 + Σ_k w[k,u]·w[k,u].
-/
import proofs.«116881_j11029476016273_2_alg».proof.Proof.Gen.KernelIdeal.Frame
import Idealize.ShloMosaic.Lib.StableHlo.Run
import Idealize.ShloMosaic.PureOps.Ideal

noncomputable section

namespace Cert.KernelIdeal.Operands

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The rows: `x` laid out as 32768 × 128. -/
theorem V_rows (c : Dev nD) :
    (V m c main_v0 : S32768x128.Idx → EReal)
      = shapeCast S32768x128 (m ((c : Thread nD τ).loc main_arg0)) shapeCasts_S8x4096x128_S32768x128 := by
  show StableHlo.after hostOps0 (fun b => m (c, b)) (Proc.devRef .tc main_v0) = _
  after_results
  rfl

/-- The matrix: `w` in the shorter format. -/
theorem V_matrix (c : Dev nD) :
    (V m c main_v1 : S128x1024.Idx → EReal)
      = truncf (F := Ideal) .bf16 (m ((c : Thread nD τ).loc main_arg1)) bitsLt_bf16_f32 := by
  show StableHlo.after hostOps0 (fun b => m (c, b)) (Proc.devRef .tc main_v1) = _
  after_results

/-- The row of column sums of squares of `w`. -/
theorem V_colsq (c : Dev nD) :
    (V m c main_v4 : S1x1024.Idx → EReal)
      = broadcastInDim S1x1024 ![1] bcast_S1024_S1x1024_1
          (Host.reduceAdd (F := Ideal) (mulf (m ((c : Thread nD τ).loc main_arg1)) (m ((c : Thread nD τ).loc main_arg1)))
            (constant (F := Ideal) S_ .f32 0x00000000#32) reducesTo_S128x1024_S1024_d0 h_S_) := by
  show StableHlo.after hostOps0 (fun b => m (c, b)) (Proc.devRef .tc main_v4) = _
  after_results

end Cert.KernelIdeal.Operands

end
-- ==== Proof.LibColumns.lean ====
/-
  Two layout operations read at an index written by coordinates, for a COLUMN kept as an axis of size one: what a sum
  over the last axis "with the axis kept" produces. A vector of `a` numbers viewed as an `a × 1` column holds, at
  row `i`, the vector's entry `i`; and an `a × 1` column spread over `b` columns holds, at `(p, c)`, the column's
  entry at row `p`, whatever `c`. Both are the general shape-cast and broadcast readings with the coordinate
  arithmetic done once, for any extents.
-/
import Idealize.ShloMosaic.Lib.Pipeline.Value
import Idealize.ShloMosaic.Lib.ValueIdx

namespace Cert.LibColumns

open Idealize.ShloMosaic Idealize.ShloMosaic.ValueIdx

variable {α : Type}

/-- An `[a]` array cast to `[a, 1]` reads, at `(i, u)`, the operand at `i`, whatever the unit coordinate `u`:
    the row-major position of `(i, u)` in an `a × 1` array is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`: the row coordinate is kept
    (or is `0` anyway when there is one row), the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumns
-- ==== Proof.Payload.lean ====
/-
  What the kernel body stores, read at one entry of its 1024 × 1024 output block. From a block `x` of 1024 rows of
  128 numbers, the 128 × 1024 matrix `w` and the row `s` of 1024 numbers, entry `(p, q)` is

      max ( Σ_k x[p,k]·x[p,k]  +  s[0,q]  −  2 · Σ_k x[p,k]·w[k,q] ,  0 ).

  The sum of squares is a reduction along the lanes of `x·x`, kept as a column and spread over the 1024 columns; `s` is
  one row spread over the 1024 rows; the product sum is the block's matrix product into a zero accumulator; rounding
  `x` to a shorter format before the product changes nothing where numbers are exact.
-/
import proofs.«116881_j11029476016273_2_alg».proof.Proof.Gen.KernelIdeal.Skeleton
import proofs.«116881_j11029476016273_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The lane reduction of a 1024 × 128 block, at row `r`, is the sum of the row's 128 entries. -/
theorem rowsum_apply (src : FVec Ideal S1024x128 .f32) (h : S1024x128.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ k : Fin 128, src (ix2 r k) :=
  (Ideal.multiReduction_add_single src 0x00000000#32 h hφ hacc (ix1 r)).trans
    (Finset.sum_congr rfl fun k _ => congrArg src (funext fun a => Fin.ext (by
      match a with
      | ⟨0, _⟩ => rfl
      | ⟨1, _⟩ => rfl)))

/-- The left operand's index of the block product at output `(p, q)` and contraction coordinate `k` has row `p`. -/
theorem lhs_row (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

/-- The right operand's index there has column `q`. -/
theorem rhs_col (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The block's matrix product into a zero accumulator, at `(p, q)`, is the sum over `k` of row `p` of the left
    operand times column `q` of the right one. -/
theorem product_apply (l : FVec Ideal S1024x128 .bf16) (r : FVec Ideal S128x1024 .bf16) (p q : Fin 1024) :
    matmul dot_S1024x128_S128x1024_S1024x1024_1_0_0_1_n_n none l r (constant (F := Ideal) S1024x1024 .f32 0x00000000#32) (ix2 p q)
      = ∑ k : Fin 128, l (ix2 p k) * r (ix2 k q) := by
  simp only [matmul]
  rw [Ideal.matmul_constant_zero_apply,
    ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q)
      ((ValueIdx.contrEquiv1 dot_S1024x128_S128x1024_S1024x1024_1_0_0_1_n_n 128 rfl rfl).symm k) = ix2 p k :=
    funext fun a => Fin.ext (by
      match a with
      | ⟨0, _⟩ => exact lhs_row _ _
      | ⟨1, _⟩ => exact (dot_S1024x128_S128x1024_S1024x1024_1_0_0_1_n_n.lhsIdx_val_of_single rfl _ _).trans hk)
  have er : dot_S1024x128_S128x1024_S1024x1024_1_0_0_1_n_n.rhsIdx (ix2 p q)
      ((ValueIdx.contrEquiv1 dot_S1024x128_S128x1024_S1024x1024_1_0_0_1_n_n 128 rfl rfl).symm k) = ix2 k q :=
    funext fun a => Fin.ext (by
      match a with
      | ⟨0, _⟩ => exact (dot_S1024x128_S128x1024_S1024x1024_1_0_0_1_n_n.rhsIdx_val_of_single rfl _ _).trans hk
      | ⟨1, _⟩ => exact rhs_col _ _)
  rw [el, er]

/-- THE STORED VALUE at entry `(p, q)` of the block. -/
theorem pay_apply (x0 : FVec Ideal S1024x128 .f32) (x1 : FVec Ideal S128x1024 .bf16) (x2 : FVec Ideal S1x1024 .f32)
    (p q : Fin 1024) :
    k0_pay1 (F := Ideal) x0 x1 x2 (ix2 p q)
      = max ((∑ k : Fin 128, x0 (ix2 p k) * x0 (ix2 p k)) + x2 (ix2 (0 : Fin 1) q)
              - Ideal.ofBits .f32 0x40000000#32 * ∑ k : Fin 128, x0 (ix2 p k) * x1 (ix2 k q))
          (Ideal.ofBits .f32 0x00000000#32) := by
  unfold k0_pay1
  dsimp only
  rw [maximumf_apply, subf_apply, addf_apply, mulf_apply, broadcast_apply, broadcast_apply]
  simp only [shapeCast_self]
  rw [Cert.LibColumns.broadcastTo_a1_ab_apply, Cert.LibColumns.shapeCast_a_a1_apply]
  refine congrArg₂ max (congrArg₂ (· - ·) (congrArg₂ (· + ·) ?_ ?_) (congrArg₂ (· * ·) rfl ?_)) rfl
  · exact rowsum_apply (mulf x0 x0) _ _ _ p
  · exact broadcastTo_1b_ab_apply x2 _ p q
  · exact product_apply (truncf .bf16 x0 bitsLt_bf16_f32) x1 p q

end Cert.KernelIdeal.Payload

end
-- ==== Proof.Blocks.lean ====
/-
  From blocks to the whole array. The kernel runs at 32 grid points; at point `t` it reads rows
  `1024·t … 1024·t + 1023` of the 32768 × 128 array of rows, the whole 128 × 1024 matrix and the whole 1 × 1024 row,
  and writes rows `1024·t … 1024·t + 1023` of the 32768 × 1024 result. Entry `(r, u)` of what it writes depends only
  on row `r` of the rows, column `u` of the matrix and entry `u` of the row:

      max ( Σ_k X[r,k]·X[r,k]  +  S[0,u]  −  2 · Σ_k X[r,k]·W[k,u] ,  0 ),

  so every block written is a block of ONE function of the three arrays, and the 32 blocks tile the result (row `r`
  lies in the block of point `r / 1024`): after the run the result array is that function.
-/
import proofs.«116881_j11029476016273_2_alg».proof.Proof.Gen.KernelIdeal.Frame
import proofs.«116881_j11029476016273_2_alg».proof.Proof.Payload
import Idealize.ShloMosaic.Lib.Pipeline.Value
import Idealize.ShloMosaic.Lib.ValueIdx
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The result as one function of the three operand arrays -/

/-- Entry `(r, u)` of the result: the clamped expanded squared distance between row `r` and column `u`. -/
def entry (X : S32768x128.Idx → EReal) (W : S128x1024.Idx → EReal) (S : S1x1024.Idx → EReal)
    (r : Fin 32768) (u : Fin 1024) : EReal :=
  max ((∑ k : Fin 128, X (ix2 r k) * X (ix2 r k)) + S (ix2 (0 : Fin 1) u)
        - Ideal.ofBits .f32 0x40000000#32 * ∑ k : Fin 128, X (ix2 r k) * W (ix2 k u))
    (Ideal.ofBits .f32 0x00000000#32)

/-- The whole 32768 × 1024 result. -/
def rowsOut (X : S32768x128.Idx → EReal) (W : S128x1024.Idx → EReal) (S : S1x1024.Idx → EReal) :
    S32768x1024.Idx → EReal :=
  fun j => entry X W S ⟨(j 0).val, (j 0).isLt⟩ ⟨(j 1).val, (j 1).isLt⟩

/-- ONE POINT. If a 1024 × 128 block holds rows `1024·T + p` of `X`, and the other two blocks are the whole of `W`
    and `S`, then what the body stores at block entry `y` is the result function at the array entry `i` that lies
    `1024·T` rows further down. -/
theorem point_eq (X : S32768x128.Idx → EReal) (W : S128x1024.Idx → EReal) (S : S1x1024.Idx → EReal)
    (x0 : FVec Ideal S1024x128 .f32) (x1 : FVec Ideal S128x1024 .bf16) (x2 : FVec Ideal S1x1024 .f32)
    (T : ℕ) (hT : T < 32)
    (h0 : ∀ (p : Fin 1024) (k : Fin 128),
      x0 (ix2 p k) = X (ix2 (⟨T * 1024 + p.val, by have := p.isLt; omega⟩ : Fin 32768) k))
    (h1 : ∀ (k : Fin 128) (q : Fin 1024), x1 (ix2 k q) = W (ix2 k q))
    (h2 : ∀ q : Fin 1024, x2 (ix2 (0 : Fin 1) q) = S (ix2 (0 : Fin 1) q))
    (y : S1024x1024.Idx) (i : S32768x1024.Idx)
    (hi0 : (i 0).val = T * 1024 + (y 0).val) (hi1 : (i 1).val = (y 1).val) :
    k0_pay1 (F := Ideal) x0 x1 x2 y = rowsOut X W S i := by
  obtain ⟨p, q, rfl⟩ : ∃ (p : Fin 1024) (q : Fin 1024), y = ix2 p q := ⟨y 0, y 1, eq_ix2 y⟩
  rw [Payload.pay_apply]
  unfold rowsOut entry
  have er : (⟨(i 0).val, (i 0).isLt⟩ : Fin 32768) = ⟨T * 1024 + p.val, by have := p.isLt; omega⟩ := Fin.ext hi0
  have eu : (⟨(i 1).val, (i 1).isLt⟩ : Fin 1024) = q := Fin.ext hi1
  rw [er, eu]
  simp only [h0, h1, h2]

/-! ## The blocks at a grid point -/

variable (m : (ℓ : Loc nD τ sig) → Buf (Elt Ideal) ℓ)

theorem hz : (![0, 0] : Fin 2 → Nat) = fun _ => 0 := funext fun a => by fin_cases a <;> rfl

/-- Where each window's block sits at point `t`, decided over the 32 points: the rows' block and the result's block
    are block `t` down the rows; the matrix and the row are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the result is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The rows' block at point `t` holds rows `1024·t + p`. -/
theorem block_rows (c : Dev nD) (t : Fin cfg0.N) (p : Fin 1024) (k : Fin 128) (h : t.val * 1024 + p.val < 32768) :
    iblk m c 0 t (ix2 p k) = V m c main_v0 (ix2 (⟨t.val * 1024 + p.val, h⟩ : Fin 32768) k) := by
  obtain ⟨e00, e01, -⟩ := idx_facts t
  have hemb : ((cfg0.win 0).blk t).view.emb (ix2 p k) = ix2 (⟨t.val * 1024 + p.val, h⟩ : Fin 32768) k := by
    funext a; apply Fin.ext
    match a with
    | ⟨0, _⟩ => show win0_0.index t (0 : Fin 2) * 1024 + 1 * p.val = t.val * 1024 + p.val; omega
    | ⟨1, _⟩ => show win0_0.index t (1 : Fin 2) * 128 + 1 * k.val = k.val; omega
  show V m c main_v0 (((cfg0.win 0).blk t).view.emb (ix2 p k)) = _
  rw [hemb]

/-- The matrix's block at every point is the whole matrix. -/
theorem block_matrix (c : Dev nD) (t : Fin cfg0.N) (k : Fin 128) (q : Fin 1024) :
    iblk m c 1 t (ix2 k q) = V m c main_v1 (ix2 k q) := by
  obtain ⟨-, -, e10, e11, -⟩ := idx_facts t
  have hemb : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 1024 + 1 * q.val = q.val; omega
  show V m c main_v1 (((cfg0.win 1).blk t).view.emb (ix2 k q)) = _
  rw [hemb]

/-- The row's block at every point is the whole row. -/
theorem block_row (c : Dev nD) (t : Fin cfg0.N) (q : Fin 1024) :
    iblk m c 2 t (ix2 (0 : Fin 1) q) = V m c main_v4 (ix2 (0 : Fin 1) q) := by
  obtain ⟨-, -, -, -, e20, e21, -⟩ := idx_facts t
  have hemb : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 1024 + 1 * q.val = q.val; omega
  show V m c main_v4 (((cfg0.win 2).blk t).view.emb (ix2 (0 : Fin 1) q)) = _
  rw [hemb]

/-- WHAT POINT `t` WRITES BACK is block `t` of the result function of the operand arrays as the region finds them. -/
theorem flushed_eq (c : Dev nD) (t : Fin cfg0.N) :
    (dats m 0 c).flushed 3 t
      = ((cfg0.win 3).blk t).view.read (Elt Ideal) (rowsOut (V m c main_v0) (V m c main_v1) (V m c main_v4)) := by
  have hN : cfg0.N = 32 := N_0
  have ht : t.val < 32 := by have := t.isLt; omega
  show (cfg0.win 3).cut (grid0.coords t) ((dats m 0 c).after 3 t) = _
  rw [after0_3]
  unfold out0_3
  rw [View.canon_unit_zero hz]
  simp only [View.ld_unit_zero (S := S1024x128) hz, View.ld_unit_zero (S := S128x1024) hz,
    View.ld_unit_zero (S := S1x1024) hz]
  obtain ⟨-, -, -, -, -, -, e30, e31⟩ := idx_facts t
  funext y
  refine point_eq (V m c main_v0) (V m c main_v1) (V m c main_v4) (iblk m c 0 t) (iblk m c 1 t) (iblk m c 2 t)
    t.val ht (fun p k => block_rows m c t p k _) (fun k q => block_matrix m c t k q) (fun q => block_row m c t q)
    y (((cfg0.win 3).blk t).view.emb y) ?_ ?_
  · show win0_3.index t (0 : Fin 2) * 1024 + 1 * (y 0).val = t.val * 1024 + (y 0).val; omega
  · show win0_3.index t (1 : Fin 2) * 1024 + 1 * (y 1).val = (y 1).val; omega

/-! ## The blocks tile the result -/

/-- An index of the result is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Row `r` lies in the block of point `r / 1024`, which writes back. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE RESULT ARRAY after the run is the result function of the operand arrays as the region finds them. -/
theorem final (c : Dev nD) :
    (dats m 0 c).arrAt 3 cfg0.N = rowsOut (V m c main_v0) (V m c main_v1) (V m c main_v4) :=
  (dats m 0 c).arrAt_eq_of_cover 3 _ (fun t _ => flushed_eq m c t) (cover)

end Cert.KernelIdeal.Blocks

end
-- ==== Proof.KernelRun.lean ====
/-
  The kernel program's run with its result named. After the region the program only re-lays the 32768 × 1024 result
  out as 8 × 4096 × 1024 (same numbers, same row-major order). So every execution ends with the result buffer at that
  re-laying of the result function of the three operand arrays, and with both arguments as they were.
-/
import proofs.«116881_j11029476016273_2_alg».proof.Proof.Gen.KernelIdeal.Frame
import proofs.«116881_j11029476016273_2_alg».proof.Proof.Blocks
import Idealize.ShloMosaic.Lib.StableHlo.Run
import Idealize.ShloMosaic.PureOps.Ideal

noncomputable section

namespace Cert.KernelIdeal.KernelRun

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- What the result buffer holds after the lines that follow the region: the region's result array, re-laid. -/
theorem tail_eq (c : Dev nD) :
    (Pipeline.afterTail₀ cfgs (dats m) 0 (V0 m) [hostOps1] c main_v6 : S8x4096x1024.Idx → EReal)
      = shapeCast S8x4096x1024 (Blocks.rowsOut (V m c main_v0) (V m c main_v1) (V m c main_v4))
          shapeCasts_S32768x1024_S8x4096x1024 := by
  unfold Pipeline.afterTail₀
  show StableHlo.after hostOps1 _ (Proc.devRef .tc main_v6) = _
  after_results
  rw [show Pipeline.withArrays (cfgs 0).spec c (V0 m c) (fun w => (dats m 0 c).arrAt w (cfgs 0).N)
        (Proc.devRef .tc main_v5) = Blocks.rowsOut (V m c main_v0) (V m c main_v1) (V m c main_v4) from
      (Pipeline.withArrays_arr spec0 launch0.win.arr_inj c _ _ 3).trans (Blocks.final m c)]
  rfl

/-- THE RUN: every weakly fair execution of the kernel program terminates, the result buffer at the re-laid result
    function of the operand arrays, the arguments unchanged. -/
theorem run : θ_run defs (onTc (τ := τ) (main (F := Ideal))) ⟨m, fun _ => 0, ρ⟩ fun r => ∀ c : Dev nD,
      r.2.mem ((c.tc : Thread nD τ).loc main_v6)
        = shapeCast S8x4096x1024 (Blocks.rowsOut (V m c main_v0) (V m c main_v1) (V m c main_v4))
            shapeCasts_S32768x1024_S8x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelRun

end
-- ==== Proof.KernelAt.lean ====
/-
  The kernel program's result at one entry, in terms of the two arguments. The result is the 32768 × 1024 array of
  clamped distances re-laid as 8 × 4096 × 1024; entry `(b, n, u)` is entry `(4096·b + n, u)` of that array. Row
  `4096·b + n` of the laid-out `x` is `x[b, n, ·]`; the matrix is `w`; the row of column sums at `u` is
  `0 + Σ_k w[k,u]·w[k,u]`. So entry `(b, n, u)` is

      max ( Σ_k x[b,n,k]·x[b,n,k]  +  (0 + Σ_k w[k,u]·w[k,u])  −  2 · Σ_k x[b,n,k]·w[k,u] ,  0 ).
-/
import proofs.«116881_j11029476016273_2_alg».proof.Proof.Blocks
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.KernelAt

open Cert.KernelIdeal Cert.KernelIdeal.Gen Idealize.ShloMosaic Idealize.ShloMosaic.ValueIdx

/-- Row `4096·b + n` of `x` laid out as 32768 × 128 is `x[b, n, ·]`: both sit at row-major position
    `(4096·b + n)·128 + k`. -/
theorem rows_apply (x : S8x4096x128.Idx → EReal) (h : S8x4096x128.ShapeCasts S32768x128) (b : Fin 8) (n : Fin 4096)
    (k : Fin 128) (hr : b.val * 4096 + n.val < 32768) :
    shapeCast S32768x128 x h (ix2 (⟨b.val * 4096 + n.val, hr⟩ : Fin 32768) k) = x (ix3 b n k) :=
  shapeCast_apply x h _ _ (by
    rw [Shape.rowMajor_val_three, Shape.rowMajor_val_two]
    show (b.val * 4096 + n.val) * 128 + k.val = (b.val * 4096 + n.val) * 128 + k.val
    rfl)

/-- The row of column sums of squares of `w`, at column `u`: the initial value `0` plus the sum down the column. -/
theorem colsq_apply (w : S128x1024.Idx → EReal) (hb : S1024.BroadcastsInDim S1x1024 (![1] : Fin 1 → Fin S1x1024.rank))
    (hr : S128x1024.ReducesTo [0] S1024) (hs : 0 < S_.numel) (u : Fin 1024) :
    broadcastInDim S1x1024 ![1] hb
        (Host.reduceAdd (F := Ideal) (mulf w w) (constant (F := Ideal) S_ .f32 0x00000000#32) hr hs) (ix2 (0 : Fin 1) u)
      = Ideal.ofBits .f32 0x00000000#32 + ∑ k : Fin 128, w (ix2 k u) * w (ix2 k u) := by
  have hbc : ∀ y : S1024.Idx → EReal, broadcastInDim S1x1024 ![1] hb y (ix2 (0 : Fin 1) u) = y (ix1 u) := fun y =>
    broadcastInDim_apply (![1] : Fin 1 → Fin S1x1024.rank) hb y (ix2 (0 : Fin 1) u) (ix1 u)
      (fun (a : Fin S1024.rank) => match a with
        | ⟨0, _⟩ => by show u.val = if (1024 : Nat) = 1 then 0 else u.val; rw [if_neg (by decide)])
  rw [hbc]
  simp only [Host.reduceAdd, Ideal.hostReduceAdd_def]
  rw [Ideal.hostReduceAdd_single hr (by decide)]
  refine congrArg (_ + ·) (Finset.sum_congr rfl fun k _ => ?_)
  exact congrArg (fun j : S128x1024.Idx => w j * w j)
    (funext fun (a : Fin 2) => Fin.ext (by match a with | ⟨0, _⟩ => rfl | ⟨1, _⟩ => rfl))

/-- THE KERNEL PROGRAM'S RESULT at entry `(b, n, u)`. -/
theorem kernel_at (x : S8x4096x128.Idx → EReal) (w : S128x1024.Idx → EReal)
    (h1 : S8x4096x128.ShapeCasts S32768x128) (h2 : FTy.bits .bf16 < FTy.bits .f32)
    (h3 : S1024.BroadcastsInDim S1x1024 (![1] : Fin 1 → Fin S1x1024.rank)) (h4 : S128x1024.ReducesTo [0] S1024)
    (h5 : 0 < S_.numel) (h6 : S32768x1024.ShapeCasts S8x4096x1024) (b : Fin 8) (n : Fin 4096) (u : Fin 1024) :
    shapeCast S8x4096x1024
        (Blocks.rowsOut (shapeCast S32768x128 x h1) (truncf (F := Ideal) .bf16 w h2)
          (broadcastInDim S1x1024 ![1] h3
            (Host.reduceAdd (F := Ideal) (mulf w w) (constant (F := Ideal) S_ .f32 0x00000000#32) h4 h5)))
        h6 (ix3 b n u)
      = max ((∑ k : Fin 128, x (ix3 b n k) * x (ix3 b n k))
              + (Ideal.ofBits .f32 0x00000000#32 + ∑ k : Fin 128, w (ix2 k u) * w (ix2 k u))
              - Ideal.ofBits .f32 0x40000000#32 * ∑ k : Fin 128, x (ix3 b n k) * w (ix2 k u))
          (Ideal.ofBits .f32 0x00000000#32) := by
  have hr : b.val * 4096 + n.val < 32768 := by have := b.isLt; have := n.isLt; omega
  rw [shapeCast_apply _ h6 (ix3 b n u) (ix2 (⟨b.val * 4096 + n.val, hr⟩ : Fin 32768) u) (by
    rw [Shape.rowMajor_val_two, Shape.rowMajor_val_three]
    show (b.val * 4096 + n.val) * 1024 + u.val = (b.val * 4096 + n.val) * 1024 + u.val
    rfl)]
  show Blocks.entry _ _ _ (⟨b.val * 4096 + n.val, hr⟩ : Fin 32768) u = _
  unfold Blocks.entry
  simp only [rows_apply x h1 b n _ hr, colsq_apply w h3 h4 h5 u, truncf_apply]

end Cert.KernelIdeal.KernelAt

end
-- ==== Proof.RefAt.lean ====
/-
  The reference's result at one entry. At `(b, n, u)` the reference computes

      ( (0 + Σ_k x[b,n,k]·x[b,n,k])  +  (0 + Σ_k w[k,u]·w[k,u]) )  −  2 · Σ_k x[b,n,k]·w[k,u] :

  the row's sum of squares kept as a unit axis and spread over the 1024 columns, the column's sum of squares spread
  over the 8 × 4096 rows, and twice the contraction of `x` with `w` over the axis of length 128.
-/
import proofs.«116881_j11029476016273_2_alg».proof.Proof.Gen.ReferenceIdeal.Read
import Idealize.ShloMosaic.Lib.ValueIdx
import Idealize.ShloMosaic.PureOps.Ideal

noncomputable section

namespace Cert.ReferenceIdeal.RefAt

open Cert.ReferenceIdeal Cert.ReferenceIdeal.Gen Cert.ReferenceIdeal.Read Idealize.ShloMosaic
open Idealize.ShloMosaic.ValueIdx

/-- THE REFERENCE at entry `(b, n, u)`. -/
theorem ref_at (x : (⟨S8x4096x128, .f32⟩ : BufTy).Contents (Elt Ideal))
    (w : (⟨S128x1024, .f32⟩ : BufTy).Contents (Elt Ideal)) (b : Fin 8) (n : Fin 4096) (u : Fin 1024) :
    val_main_v12 (F := Ideal) x w (ix3 b n u)
      = ((Ideal.ofBits .f32 0x00000000#32 + ∑ k : Fin 128, x (ix3 b n k) * x (ix3 b n k))
          + (Ideal.ofBits .f32 0x00000000#32 + ∑ k : Fin 128, w (ix2 k u) * w (ix2 k u)))
        - Ideal.ofBits .f32 0x40000000#32 * ∑ k : Fin 128, x (ix3 b n k) * w (ix2 k u) := by
  have i1 : idx_main_v2 (idx_main_v7 (ix3 b n u)) = ix2 b n :=
    funext fun a => Fin.ext (by match a with | ⟨0, _⟩ => rfl | ⟨1, _⟩ => rfl)
  have i1k : ∀ k : Fin 128, idx_main_v1 (ix2 b n) k = ix3 b n k := fun k =>
    funext fun a => Fin.ext (by match a with | ⟨0, _⟩ => rfl | ⟨1, _⟩ => rfl | ⟨2, _⟩ => rfl)
  have i4 : idx_main_v6 (idx_main_v8 (ix3 b n u)) = ix1 u :=
    funext fun a => Fin.ext (by match a with | ⟨0, _⟩ => rfl)
  have i4k : ∀ k : Fin 128, idx_main_v4 (ix1 u) k = ix2 k u := fun k =>
    funext fun a => Fin.ext (by match a with | ⟨0, _⟩ => rfl | ⟨1, _⟩ => rfl)
  have il : ∀ k : Fin 128, lidx_main_v5 (ix3 b n u) k = ix3 b n k := fun k =>
    funext fun a => Fin.ext (by match a with | ⟨0, _⟩ => rfl | ⟨1, _⟩ => rfl | ⟨2, _⟩ => rfl)
  have ir : ∀ k : Fin 128, ridx_main_v5 (ix3 b n u) k = ix2 k u := fun k =>
    funext fun a => Fin.ext (by match a with | ⟨0, _⟩ => rfl | ⟨1, _⟩ => rfl)
  rw [val_main_v12_apply, val_main_v9_apply, val_main_v11_apply, val_main_v7_apply, val_main_v2_apply,
    val_main_v8_apply, val_main_v6_apply, val_main_v10_apply, val_main_v5_apply, i1, i4,
    val_main_v1_apply, val_main_v4_apply]
  simp only [i1k, i4k, il, ir, val_main_v0_apply, val_main_v3_apply, val_main_cst_apply, val_main_cst_0_apply,
    val_main_cst_1_apply, Ideal.mulf_def, Ideal.addf_def, Ideal.subf_def, Ideal.ofBits_def]

end Cert.ReferenceIdeal.RefAt

end
-- ==== Proof.Algebra.lean ====
/-
  The arithmetic that joins the two programs. Both compute, for a row `x` of 128 numbers and a column `w` of 128
  numbers, the expanded squared distance  Σ x² + Σ w² − 2 · Σ x·w ; one of them then takes the maximum with zero.
  Over the REAL numbers the expansion is Σ (x − w)², a sum of squares, so it is nonnegative and the maximum with
  zero changes nothing. Over the extended reals this needs every entry to be a real number: at an infinite entry the
  difference of two infinities is the bottom element, below zero. The two float words that occur, `2.0` and `+0.0`,
  are read here, once, as the reals they denote.
-/
import Idealize.ShloMosaic.PureOps.Ideal
import Idealize.ShloMosaic.PureOps.Ideal.Laws

noncomputable section

namespace Cert.SqDist

open Idealize.ShloMosaic

/-- The word `0x40000000` denotes the real number 2. -/
theorem ofBits_two : Ideal.ofBits .f32 0x40000000#32 = ((2 : ℝ) : EReal) := by
  simp [Ideal.ofBits, Ideal.ieee, -EReal.coe_mul]; norm_num

/-- A finite sum of real numbers, read as an extended real, is the sum of the terms read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals the expanded squared distance is a sum of squares, hence nonnegative. -/
theorem expand_nonneg {n : ℕ} (a b : Fin n → ℝ) :
    0 ≤ (∑ k, a k * a k) + (∑ k, b k * b k) - 2 * ∑ k, a k * b k := by
  have e : (∑ k, a k * a k) + (∑ k, b k * b k) - 2 * ∑ k, a k * b k = ∑ k, (a k - b k) ^ 2 := by
    rw [Finset.mul_sum, ← Finset.sum_add_distrib, ← Finset.sum_sub_distrib]
    exact Finset.sum_congr rfl fun k _ => by ring
  rw [e]
  exact Finset.sum_nonneg fun k _ => sq_nonneg _

/-- For vectors of REAL entries the expanded squared distance, computed in the extended reals with the float word for
    2, is its own maximum with zero. -/
theorem clamp_eq {n : ℕ} (x w : Fin n → EReal) (hx : ∀ k, ∃ r : ℝ, x k = (r : EReal))
    (hw : ∀ k, ∃ r : ℝ, w k = (r : EReal)) :
    max ((∑ k, x k * x k) + (∑ k, w k * w k) - Ideal.ofBits .f32 0x40000000#32 * ∑ k, x k * w k) 0
      = (∑ k, x k * x k) + (∑ k, w k * w k) - Ideal.ofBits .f32 0x40000000#32 * ∑ k, x k * w k := by
  choose a ha using hx
  choose b hb using hw
  have e : (∑ k, x k * x k) + (∑ k, w k * w k) - Ideal.ofBits .f32 0x40000000#32 * ∑ k, x k * w k
      = (((∑ k, a k * a k) + (∑ k, b k * b k) - 2 * ∑ k, a k * b k : ℝ) : EReal) := by
    rw [ofBits_two]
    simp only [ha, hb, ← EReal.coe_mul, ← coe_sum, ← EReal.coe_add, ← EReal.coe_sub]
  rw [e]
  exact max_eq_left (EReal.coe_nonneg.mpr (expand_nonneg a b))

end Cert.SqDist

end
-- ==== Proof.Bridge.lean ====
/-
  The two programs compute one function of FINITE arguments. Entry `(b, n, u)` of the kernel program's result is
  `max (D, 0)` and the reference's is `D`, where

      D = Σ_k x[b,n,k]·x[b,n,k]  +  Σ_k w[k,u]·w[k,u]  −  2 · Σ_k x[b,n,k]·w[k,u]

  (each side adds the initial value `0` of its sums, which changes nothing). When every entry of `x` and `w` is a real
  number, `D` is the sum of squares `Σ_k (x[b,n,k] − w[k,u])²`, which is not negative, so `max (D, 0) = D`.
-/
import proofs.«116881_j11029476016273_2_alg».proof.Proof.KernelAt
import proofs.«116881_j11029476016273_2_alg».proof.Proof.RefAt
import proofs.«116881_j11029476016273_2_alg».proof.Proof.Algebra
import Idealize.ShloMosaic.Lib.ValueIdx
import Idealize.ShloMosaic.PureOps.Ideal.Laws

noncomputable section

namespace Cert.Bridge

open Idealize.ShloMosaic Idealize.ShloMosaic.ValueIdx

/-- For arguments whose entries are all real numbers, the kernel program's result — the clamped distances, re-laid —
    is the reference's result, entry by entry. -/
theorem result_eq (x : Cert.KernelIdeal.S8x4096x128.Idx → EReal) (w : Cert.KernelIdeal.S128x1024.Idx → EReal)
    (hx : ∀ i, ∃ r : ℝ, x i = (r : EReal)) (hw : ∀ i, ∃ r : ℝ, w i = (r : EReal))
    (h1 : Cert.KernelIdeal.S8x4096x128.ShapeCasts Cert.KernelIdeal.S32768x128) (h2 : FTy.bits .bf16 < FTy.bits .f32)
    (h3 : Cert.KernelIdeal.S1024.BroadcastsInDim Cert.KernelIdeal.S1x1024 (![1] : Fin 1 → Fin Cert.KernelIdeal.S1x1024.rank))
    (h4 : Cert.KernelIdeal.S128x1024.ReducesTo [0] Cert.KernelIdeal.S1024) (h5 : 0 < Cert.KernelIdeal.S_.numel)
    (h6 : Cert.KernelIdeal.S32768x1024.ShapeCasts Cert.KernelIdeal.S8x4096x1024) :
    shapeCast Cert.KernelIdeal.S8x4096x1024
        (Cert.KernelIdeal.Blocks.rowsOut (shapeCast Cert.KernelIdeal.S32768x128 x h1) (truncf (F := Ideal) .bf16 w h2)
          (broadcastInDim Cert.KernelIdeal.S1x1024 ![1] h3
            (Host.reduceAdd (F := Ideal) (mulf w w) (constant (F := Ideal) Cert.KernelIdeal.S_ .f32 0x00000000#32) h4 h5)))
        h6
      = Cert.ReferenceIdeal.Read.val_main_v12 (F := Ideal) x w := by
  funext i
  obtain ⟨b, n, u, rfl⟩ : ∃ (b : Fin 8) (n : Fin 4096) (u : Fin 1024), i = ix3 b n u := ⟨i 0, i 1, i 2, eq_ix3 i⟩
  rw [Cert.KernelIdeal.KernelAt.kernel_at, Cert.ReferenceIdeal.RefAt.ref_at, Ideal.ofBits_zero_f32]
  simp only [zero_add]
  exact Cert.SqDist.clamp_eq (fun k => x (ix3 b n k)) (fun k => w (ix2 k u)) (fun k => hx _) (fun k => hw _)

end Cert.Bridge

end
-- ==== Proof.lean ====
/-
  The squared Euclidean distance from every point `x[b, n, ·]` (8 × 4096 points of 128 coordinates) to every column
  `w[·, u]` (1024 columns), computed by its expansion  Σ x² + Σ w² − 2 · Σ x·w.

  The reference computes exactly that. The kernel program lays `x` out as 32768 rows, forms the column sums of squares
  of `w` beforehand, and then, 1024 rows at a time, forms the row sums of squares, the product of the rows with `w`
  (through a shorter float format, which is no change where numbers are exact), the expansion, and finally its
  MAXIMUM WITH ZERO; the result is laid back out as 8 × 4096 × 1024.

  Where every input is a finite number the expansion equals Σ (x − w)², a sum of squares of real numbers, so it is
  not negative and the maximum with zero is the expansion itself: the two programs end with equal results. (At an
  infinite input the expansion is a difference of infinities, and the clamp would show; this is where the
  precondition is used.) Each program's run is read off its generated frame or run; the kernel program was printed
  from its module with no rewrite, so nothing more is owed for it to be its own idealization.
-/
import proofs.«116881_j11029476016273_2_alg».proof.Defs
import proofs.«116881_j11029476016273_2_alg».proof.Proof.Gen.Kernel
import proofs.«116881_j11029476016273_2_alg».proof.Proof.Gen.Kernel.Skeleton
import proofs.«116881_j11029476016273_2_alg».proof.Proof.Gen.Kernel.Launch
import proofs.«116881_j11029476016273_2_alg».proof.Proof.Gen.Kernel.Points
import proofs.«116881_j11029476016273_2_alg».proof.Proof.Gen.Kernel.Frame
import proofs.«116881_j11029476016273_2_alg».proof.Proof.Gen.KernelIdeal
import proofs.«116881_j11029476016273_2_alg».proof.Proof.Gen.KernelIdeal.Skeleton
import proofs.«116881_j11029476016273_2_alg».proof.Proof.Gen.KernelIdeal.Launch
import proofs.«116881_j11029476016273_2_alg».proof.Proof.Gen.KernelIdeal.Points
import proofs.«116881_j11029476016273_2_alg».proof.Proof.Gen.KernelIdeal.Frame
import proofs.«116881_j11029476016273_2_alg».proof.Proof.Gen.ReferenceIdeal
import proofs.«116881_j11029476016273_2_alg».proof.Proof.Gen.ReferenceIdeal.Run
import proofs.«116881_j11029476016273_2_alg».proof.Proof.Gen.ReferenceIdeal.Read
import proofs.«116881_j11029476016273_2_alg».proof.Proof.Gen.Pre_finite_inputs
import proofs.«116881_j11029476016273_2_alg».proof.Proof.Finite
import proofs.«116881_j11029476016273_2_alg».proof.Proof.Operands
import proofs.«116881_j11029476016273_2_alg».proof.Proof.KernelRun
import proofs.«116881_j11029476016273_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel program read over exact numbers. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with what it says about the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on finite arguments, both programs end with the reference's function of those arguments:
    the reference by its run; the kernel program because, at real entries, the clamped expansion is the expansion. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v12 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.KernelRun.run m ρ)
    obtain ⟨hx, hw⟩ := Cert.Finite.real_of_pre _ _ (hpre c)
    rw [Cert.KernelIdeal.Operands.V_rows, Cert.KernelIdeal.Operands.V_matrix, Cert.KernelIdeal.Operands.V_colsq]
    exact Cert.Bridge.result_eq _ _ hx hw _ _ _ _ _ _
  · refine (θ_run Cert.ReferenceIdeal.defs _ _).mono (fun r h c => ⟨?_, (h c).2⟩)
      (Cert.ReferenceIdeal.Value.run (F := Ideal) m' ρ')
    rw [(h c).1, Cert.ReferenceIdeal.Read.val_main_v12_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
